-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x256x3 : Shape := ⟨4, ![32, 64, 256, 3]⟩
abbrev S_ : Shape := ⟨0, ![]⟩

class Facts : Prop where
  bcast_S_S32x64x256x3 : S_.BroadcastsInDim S32x64x256x3 (![] : Fin 0 → Fin S32x64x256x3.rank)
  reducesTo_S32x64x256x3_S_d0_1_2_3 : S32x64x256x3.ReducesTo [0, 1, 2, 3] S_
  h_S_ : 0 < S_.numel

variable [Facts]

def fn {F : FTy → Type} [FloatOps F] (main_arg0 : FVec F S32x64x256x3 .f32) (main_arg1 : FVec F S32x64x256x3 .f32) : IVec S_ 1 :=
  let main_v0 : FVec F S32x64x256x3 .f32 := Host.absf main_arg0
  let main_cst : FVec F S_ .f32 := constant S_ .f32 0x7F800000#32
  let main_v1 : FVec F S32x64x256x3 .f32 := broadcastInDim S32x64x256x3 ![] bcast_S_S32x64x256x3 main_cst
  let main_v2 : IVec S32x64x256x3 1 := cmpf .olt main_v0 main_v1
  let main_c : IVec S_ 1 := constantI S_ 1 1#1
  let main_v3 : IVec S_ 1 := (fun x v => Host.reduce IntOp.andi x v reducesTo_S32x64x256x3_S_d0_1_2_3 h_S_) main_v2 main_c
  let main_v4 : FVec F S32x64x256x3 .f32 := Host.absf main_arg1
  let main_cst_0 : FVec F S_ .f32 := constant S_ .f32 0x7F800000#32
  let main_v5 : FVec F S32x64x256x3 .f32 := broadcastInDim S32x64x256x3 ![] bcast_S_S32x64x256x3 main_cst_0
  let main_v6 : IVec S32x64x256x3 1 := cmpf .olt main_v4 main_v5
  let main_c_1 : IVec S_ 1 := constantI S_ 1 1#1
  let main_v7 : IVec S_ 1 := (fun x v => Host.reduce IntOp.andi x v reducesTo_S32x64x256x3_S_d0_1_2_3 h_S_) main_v6 main_c_1
  let main_v8 : IVec S_ 1 := andi main_v3 main_v7
  main_v8
-- ==== Kernel.lean ====
abbrev S32x64x256x3 : Shape := ⟨4, ![32, 64, 256, 3]⟩
abbrev S2048x256x3 : Shape := ⟨3, ![2048, 256, 3]⟩
abbrev S2048x3x256 : Shape := ⟨3, ![2048, 3, 256]⟩
abbrev S2048x1 : Shape := ⟨2, ![2048, 1]⟩
abbrev S32x3x256 : Shape := ⟨3, ![32, 3, 256]⟩
abbrev S32x1 : Shape := ⟨2, ![32, 1]⟩
abbrev S32x256x256 : Shape := ⟨3, ![32, 256, 256]⟩
abbrev S32x1x256 : Shape := ⟨3, ![32, 1, 256]⟩
abbrev S32x256 : Shape := ⟨2, ![32, 256]⟩
abbrev S32x256x1 : Shape := ⟨3, ![32, 256, 1]⟩
abbrev S32 : Shape := ⟨1, ![32]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S32x64x256x3, .f32⟩
  | .hbm, ⟨1, _⟩ => ⟨S32x64x256x3, .f32⟩
  | .hbm, ⟨2, _⟩ => ⟨S2048x256x3, .f32⟩
  | .hbm, ⟨3, _⟩ => ⟨S2048x256x3, .f32⟩
  | .hbm, ⟨4, _⟩ => ⟨S2048x3x256, .f32⟩
  | .hbm, ⟨5, _⟩ => ⟨S2048x3x256, .f32⟩
  | .hbm, ⟨6, _⟩ => ⟨S2048x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S32x3x256, .f32⟩
  | .local _ .vmem, ⟨1, _⟩ => ⟨S32x3x256, .f32⟩
  | .local _ .vmem, ⟨2, _⟩ => ⟨S32x3x256, .f32⟩
  | .local _ .vmem, ⟨3, _⟩ => ⟨S32x3x256, .f32⟩
  | .local _ .vmem, ⟨4, _⟩ => ⟨S32x1, .f32⟩
  | .local _ .vmem, ⟨5, _⟩ => ⟨S32x1, .f32⟩
  | _, _ => ⟨S32x64x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x64x256x3_S2048x256x3 : S32x64x256x3.ShapeCasts S2048x256x3
  transposes_S2048x256x3_S2048x3x256_0_2_1 : S2048x256x3.Transposes [0, 2, 1] S2048x3x256
  inb_S32x3x256_S32x3x256_0_0_0 : ∀ a, (![0, 0, 0] : Fin 3 → Nat) a + S32x3x256.size a ≤ S32x3x256.size a
  h_S32x3x256 : 0 < S32x3x256.numel
  shapeCasts_S32x3x256_S32x3x256 : S32x3x256.ShapeCasts S32x3x256
  slices_S32x3x256_o0_0_0_S32x1x256 : S32x3x256.Slices ![0, 0, 0] S32x1x256
  shapeCasts_S32x1x256_S32x256 : S32x1x256.ShapeCasts S32x256
  shapeCasts_S32x256_S32x256x1 : S32x256.ShapeCasts S32x256x1
  shapeCasts_S32x256_S32x1x256 : S32x256.ShapeCasts S32x1x256
  broadcasts_S32x256x1_S32x256x256 : S32x256x1.Broadcasts S32x256x256
  broadcasts_S32x1x256_S32x256x256 : S32x1x256.Broadcasts S32x256x256
  slices_S32x3x256_o0_1_0_S32x1x256 : S32x3x256.Slices ![0, 1, 0] S32x1x256
  slices_S32x3x256_o0_2_0_S32x1x256 : S32x3x256.Slices ![0, 2, 0] S32x1x256
  reduces_S32x256x256_S32x256 : S32x256x256.Reduces [2] S32x256
  reduces_S32x256_S32 : S32x256.Reduces [1] S32
  reduces_S32x256x256_S32x256_2 : S32x256x256.Reduces [1] S32x256
  shapeCasts_S32_S32x1 : S32.ShapeCasts S32x1
  inb_S32x1_S32x1_0_0 : ∀ a, (![0, 0] : Fin 2 → Nat) a + S32x1.size a ≤ S32x1.size a
  h_S32x1 : 0 < S32x1.numel
  reducesTo_S2048x1_S_d0_1 : S2048x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x3x256.size a ≤ S2048x3x256.size a
  hwx0_0 : ∀ i : grid0.Coords, EltTy.bits .f32 = 32 ∨ (Rect.block (s := S2048x3x256) S32x3x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x3x256.size a ≤ S2048x3x256.size a
  hwx0_1 : ∀ i : grid0.Coords, EltTy.bits .f32 = 32 ∨ (Rect.block (s := S2048x3x256) S32x3x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S2048x1.size a
  hwx0_2 : ∀ i : grid0.Coords, EltTy.bits .f32 = 32 ∨ (Rect.block (s := S2048x1) S32x1.size (cc0_transform_2 i) (hinb0_2 i)).WholeWords (EltTy.packing .f32)

variable [Facts₀]

abbrev win0_0 : Pipeline.Window sig grid0 :=
  Pipeline.Window.ofSpec (Memref.whole main_v2) S32x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S32x3x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S32x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x64x256x3 : Shape := ⟨4, ![32, 64, 256, 3]⟩
abbrev S2048x256x3 : Shape := ⟨3, ![2048, 256, 3]⟩
abbrev S_ : Shape := ⟨0, ![]⟩
abbrev S2048x256 : Shape := ⟨2, ![2048, 256]⟩
abbrev S2048x256x256 : Shape := ⟨3, ![2048, 256, 256]⟩
abbrev S2048x256x1 : Shape := ⟨3, ![2048, 256, 1]⟩
abbrev S2048x1x256 : Shape := ⟨3, ![2048, 1, 256]⟩
abbrev S2048 : Shape := ⟨1, ![2048]⟩

abbrev nBuf : Space → Nat
  | .hbm => 42
  | .vmem => 0
  | .smem => 0
  | _ => 0

abbrev bufTy : (tb : Table) → Fin (tcTables nBuf tb) → BufTy
  | .hbm, ⟨0, _⟩ => ⟨S32x64x256x3, .f32⟩
  | .hbm, ⟨1, _⟩ => ⟨S32x64x256x3, .f32⟩
  | .hbm, ⟨2, _⟩ => ⟨S2048x256x3, .f32⟩
  | .hbm, ⟨3, _⟩ => ⟨S2048x256x3, .f32⟩
  | .hbm, ⟨4, _⟩ => ⟨S2048x256x3, .f32⟩
  | .hbm, ⟨5, _⟩ => ⟨S_, .f32⟩
  | .hbm, ⟨6, _⟩ => ⟨S2048x256, .f32⟩
  | .hbm, ⟨7, _⟩ => ⟨S2048x256x3, .f32⟩
  | .hbm, ⟨8, _⟩ => ⟨S_, .f32⟩
  | .hbm, ⟨9, _⟩ => ⟨S2048x256, .f32⟩
  | .hbm, ⟨10, _⟩ => ⟨S2048x256x256, .f32⟩
  | .hbm, ⟨11, _⟩ => ⟨S2048x256x1, .f32⟩
  | .hbm, ⟨12, _⟩ => ⟨S2048x1x256, .f32⟩
  | .hbm, ⟨13, _⟩ => ⟨S2048x256x256, .f32⟩
  | .hbm, ⟨14, _⟩ => ⟨S2048x256x256, .f32⟩
  | .hbm, ⟨15, _⟩ => ⟨S2048x256x256, .f32⟩
  | .hbm, ⟨16, _⟩ => ⟨S_, .f32⟩
  | .hbm, ⟨17, _⟩ => ⟨S2048x256x256, .f32⟩
  | .hbm, ⟨18, _⟩ => ⟨S2048x256x256, .f32⟩
  | .hbm, ⟨19, _⟩ => ⟨S2048x256x256, .f32⟩
  | .hbm, ⟨20, _⟩ => ⟨S_, .f32⟩
  | .hbm, ⟨21, _⟩ => ⟨S2048x256x256, .f32⟩
  | .hbm, ⟨22, _⟩ => ⟨S2048x256x256, .f32⟩
  | .hbm, ⟨23, _⟩ => ⟨S_, .f32⟩
  | .hbm, ⟨24, _⟩ => ⟨S2048x256, .f32⟩
  | .hbm, ⟨25, _⟩ => ⟨S_, .f32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S2048x256, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S32x64x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩
abbrev main_cst_10 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  shapeCasts_S32x64x256x3_S2048x256x3 : S32x64x256x3.ShapeCasts S2048x256x3
  reducesTo_S2048x256x3_S2048x256_d2 : S2048x256x3.ReducesTo [2] S2048x256
  h_S_ : 0 < S_.numel
  bcast_S2048x256_S2048x256x1_0_1 : S2048x256.BroadcastsInDim S2048x256x1 (![0, 1] : Fin 2 → Fin S2048x256x1.rank)
  bcast_S2048x256_S2048x1x256_0_2 : S2048x256.BroadcastsInDim S2048x1x256 (![0, 2] : Fin 2 → Fin S2048x1x256.rank)
  bcast_S2048x256x1_S2048x256x256_0_1_2 : S2048x256x1.BroadcastsInDim S2048x256x256 (![0, 1, 2] : Fin 3 → Fin S2048x256x256.rank)
  bcast_S2048x1x256_S2048x256x256_0_1_2 : S2048x1x256.BroadcastsInDim S2048x256x256 (![0, 1, 2] : Fin 3 → Fin S2048x256x256.rank)
  bcast_S_S2048x256x256 : S_.BroadcastsInDim S2048x256x256 (![] : Fin 0 → Fin S2048x256x256.rank)
  reducesTo_S2048x256x256_S2048x256_d2 : S2048x256x256.ReducesTo [2] S2048x256
  reducesTo_S2048x256_S2048_d1 : S2048x256.ReducesTo [1] S2048
  bcast_S_S2048 : S_.BroadcastsInDim S2048 (![] : Fin 0 → Fin S2048.rank)
  reducesTo_S2048x256x256_S2048x256_d1 : S2048x256x256.ReducesTo [1] S2048x256
  reducesTo_S2048_S_d0 : S2048.ReducesTo [0] S_
  dot_S2048x256x3_S2048x256x3_S2048x256x256_2_2_1_1_0_0_wf : DotDims.WF S2048x256x3 S2048x256x3 S2048x256x256 [2] [2] [1] [1] [0] [0]

variable [Facts₀]

def dot_S2048x256x3_S2048x256x3_S2048x256x256_2_2_1_1_0_0 : DotDims S2048x256x3 S2048x256x3 S2048x256x256 where
  lhsContracting := [2]
  rhsContracting := [2]
  lhsNonContracting := [1]
  rhsNonContracting := [1]
  lhsBatch := [0]
  rhsBatch := [0]
  wf := dot_S2048x256x3_S2048x256x3_S2048x256x256_2_2_1_1_0_0_wf

class Facts : Prop extends Facts₀ where

variable [Facts]
-- ==== Proof.LibRealArrays.lean ====
/-
  Arrays of real numbers among the extended reals: general lemmas, none about a particular program.

  At the ideal float instance an array entry is an extended real.  Laws that need finiteness (distributivity,
  cancelling) are applied to arrays all of whose entries are real numbers; this file says how such arrays arise and
  what they are closed under.

  * `IsReal f`: every entry of `f` is (the coercion of) a real number.
  * `coe_sum`, `IsReal.sum`: a finite sum of reals taken in the extended reals is the coercion of the real sum; a
    finite sum of entries of a real array is real.
  * `IsReal.broadcastInDim`, `IsReal.gather`, `IsReal.mulf`: an array read through an index map (a broadcast, a
    gather) has only entries of the array it reads, and a pointwise product of real arrays is real.
  * `scatterAdd_isReal`: a host scatter-add of real updates into an array of zeros is real (each entry is zero plus a
    finite sum of updates), whatever the scatter indices.
  * `real_var`: over the reals, the mean of the squares minus the squared mean is the mean of the squared deviations
    from the mean (for `N` the number of terms, nonzero).
  * `inf_bits`, `real_of_abs_lt`, `isReal_of_all`: the f32 word `0x7F800000` is +∞; an extended real whose absolute
    value `max x (-x)` compares below it is a real number; an array whose "every |entry| is below +∞" bit (the
    and-reduction over all axes of the pointwise comparison) is 1 is an array of reals.
-/
import Idealize.ShloMosaic.PureOps.Ideal
import Idealize.ShloMosaic.PureOps.Ideal.Laws
import Idealize.ShloMosaic.PureOps.Vector
import Idealize.ShloMosaic.PureOps.Contract
import Idealize.ShloMosaic.Lib.ReduceAll

noncomputable section

open scoped BigOperators

namespace Cert.RealArrays

open Idealize.ShloMosaic

/-! ## Real arrays and finite sums -/

/-- Every entry is a real number (neither infinity). -/
def IsReal {ι : Type} (f : ι → EReal) : Prop := ∀ i, ∃ r : ℝ, f i = (r : EReal)

/-- A finite sum of real numbers, taken in the extended reals, is the real sum. -/
theorem coe_sum {ι : Type} (s : Finset ι) (g : ι → ℝ) : (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- A finite sum of entries of an array of reals is real. -/
theorem IsReal.sum {ι : Type} {f : ι → EReal} (hf : IsReal f) (s : Finset ι) : ∃ r : ℝ, (∑ i ∈ s, f i) = (r : EReal) := by
  choose g hg using hf
  exact ⟨∑ i ∈ s, g i, by rw [← coe_sum]; exact Finset.sum_congr rfl fun i _ => hg i⟩

/-! ## Reading through an index map, and products -/

/-- A broadcast of a real array is real: every entry of the result is an entry of the operand. -/
theorem IsReal.broadcastInDim {s t : Shape} {x : s.Idx → EReal} (hx : IsReal x) (dims : Fin s.rank → Fin t.rank)
    (h : s.BroadcastsInDim t dims) : IsReal (broadcastInDim t dims h x) :=
  fun _ => hx _

/-- A gather from a real array is real: every entry of the result is an entry of the operand. -/
theorem IsReal.gather {s si t : Shape} {w : ℕ} {x : s.Idx → EReal} (hx : IsReal x) (d : GatherDims s si t)
    (idx : IVec si w) : IsReal (Host.gather d x idx) :=
  fun _ => hx _

/-- A pointwise product of two real arrays is real. -/
theorem IsReal.mulf {s : Shape} {a b : FVec Ideal s .f32} (ha : IsReal a) (hb : IsReal b) : IsReal (mulf (F := Ideal) a b) := by
  intro i
  obtain ⟨p, hp⟩ := ha i
  obtain ⟨q, hq⟩ := hb i
  exact ⟨p * q, by show (a i : EReal) * b i = _; rw [hp, hq, EReal.coe_mul]⟩

/-! ## Scatter-add -/

/-- A scatter-add into an array of zeros of an array of reals is an array of reals: every entry is zero plus a finite
    sum of updates. -/
theorem scatterAdd_isReal {s si u : Shape} {w : ℕ} (d : ScatterDims s si u) (x : FVec Ideal s .f32) (idx : IVec si w)
    (upd : FVec Ideal u .f32) (hx : ∀ i, x i = 0) (hu : IsReal upd) :
    IsReal (Host.scatterAdd (F := Ideal) d x idx upd) := by
  intro i
  show ∃ r : ℝ, x i + (∑ j ∈ _, upd j) = (r : EReal)
  rw [hx i, zero_add]
  exact hu.sum _

/-! ## The two forms of the variance, over the reals -/

/-- Over the reals: the mean of the squared deviations is the mean of the squares minus the squared mean. -/
theorem real_var (n : ℕ) (x : Fin n → ℝ) (N : ℝ) (hN : N = n) (h0 : N ≠ 0) :
    (∑ r, x r * x r) * (1 / N) - ((∑ r, x r) * (1 / N)) * ((∑ r, x r) * (1 / N))
      = (∑ r, (x r - (∑ r, x r) * (1 / N)) * (x r - (∑ r, x r) * (1 / N))) * (1 / N) := by
  set S := ∑ r, x r with hS
  set μ := S * (1 / N) with hμ
  have e : (∑ r, (x r - μ) * (x r - μ)) = (∑ r, x r * x r) - 2 * μ * S + (n : ℝ) * (μ * μ) := by
    have : ∀ r, (x r - μ) * (x r - μ) = x r * x r - 2 * μ * x r + μ * μ := fun r => by ring
    simp only [this, Finset.sum_add_distrib, Finset.sum_sub_distrib, ← Finset.mul_sum, Finset.sum_const,
      Finset.card_univ, Fintype.card_fin, nsmul_eq_mul, ← hS]
    ring
  rw [e, ← hN, hμ]
  field_simp
  ring

/-! ## From "every absolute value is below +∞" to real entries -/

/-- The scalar shape has one index. -/
instance : Subsingleton (⟨0, ![]⟩ : Shape).Idx := ⟨fun a b => funext fun d => d.elim0⟩

/-- The word `0x7F800000` is +∞. -/
theorem inf_bits : Ideal.ofBits .f32 0x7F800000#32 = (⊤ : EReal) := by
  simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  rw [inf_bits] at h
  induction x using EReal.rec with
  | bot => simp [Ideal.cmp] at h
  | coe r => exact ⟨r, rfl⟩
  | top => simp [Ideal.cmp] at h

/-- An array all of whose entries pass "absolute value below +∞" is an array of reals. -/
theorem isReal_of_all {s : Shape} {axes : List (Fin s.rank)} (a : FVec Ideal s .f32)
    (hb : (⟨0, ![]⟩ : Shape).BroadcastsInDim s (![] : Fin 0 → Fin s.rank)) (hred : s.ReducesTo axes (⟨0, ![]⟩ : Shape))
    (hS : 0 < (⟨0, ![]⟩ : Shape).numel) (j : (⟨0, ![]⟩ : Shape).Idx)
    (he : Host.reduce IntOp.andi (cmpf (F := Ideal) .olt (Host.absf a)
          (broadcastInDim s ![] hb (constant (⟨0, ![]⟩ : Shape) .f32 0x7F800000#32)))
        (constantI (⟨0, ![]⟩ : Shape) 1 1#1) hred hS j = 1#1) : IsReal a :=
  fun i => real_of_abs_lt (a i) (Host.reduce_andi_all _ _ hred hS j he i)

end Cert.RealArrays

end
-- ==== Proof.RealInputs.lean ====
/-
  From the precondition to real coordinates.

  The precondition says, of each input array, that every absolute value compares below +∞, the comparisons gathered
  by an and-reduction over all four axes, and the two verdicts joined by `and`.  When the joined verdict is 1 both
  are, and then every entry of either array is a real number.
-/
import proofs.«150360_j62723702391633_2_alg».proof.Pre_finite_inputs
import proofs.«150360_j62723702391633_2_alg».proof.Proof.LibRealArrays
import Idealize.ShloMosaic.Lib.Affine
import Idealize.ShloMosaic.Lib.ValueIdx

noncomputable section

namespace Cert.Chamfer

open Idealize.ShloMosaic Cert.RealArrays

/-- If the precondition's bit is 1 on two arrays, both are arrays of real numbers. -/
theorem real_of_pre [Cert.Pre_finite_inputs.Facts] (a b : FVec Ideal Cert.Pre_finite_inputs.S32x64x256x3 .f32)
    (h : Cert.Pre_finite_inputs.fn (F := Ideal) a b = fun _ => 1#1) : IsReal a ∧ IsReal b := by
  have h0 := congrFun h ValueIdx.ix0
  dsimp only [Cert.Pre_finite_inputs.fn] at h0
  obtain ⟨h1, h2⟩ := IntOp.andi_eq_one.mp h0
  exact ⟨isReal_of_all a _ _ _ _ h1, isReal_of_all b _ _ _ _ h2⟩

end Cert.Chamfer

end
-- ==== Proof.Spec.lean ====
/-
  The patch Chamfer distance as one function of the two point arrays, and the law that joins its two spellings.

  The point arrays are P, Q : [2048, 256, 3]: 2048 patches of 256 points with 3 coordinates each.
  For a patch b the squared distance between point i of P and point j of Q is
      D b i j = (p0 - q0)^2 + (p1 - q1)^2 + (p2 - q2)^2          (summed from zero, coordinate by coordinate).
  The patch's distance is the mean over i of the least D b i j over j, plus the mean over j of the least D b i j
  over i; the result is the mean of that over the 2048 patches.  A least value is the fold of `min` from +∞.

  The other spelling of the squared distance is  max(|p|^2 + |q|^2 - 2 <p, q>, 0).  On real numbers the two agree:
  |p|^2 + |q|^2 - 2 <p, q> is the sum of the squared differences, which is never negative, so the maximum with zero
  changes nothing.  (On the extended reals the expansion of a square fails at the infinities; the law is stated for
  points with real coordinates.)
-/
import Idealize.ShloMosaic.PureOps.Ideal
import Idealize.ShloMosaic.PureOps.Ideal.Laws
import Idealize.ShloMosaic.Lib.ValueIdx

noncomputable section

open scoped BigOperators

namespace Cert.Chamfer

open Idealize.ShloMosaic Idealize.ShloMosaic.ValueIdx

/-- The shape of a point array: patches, points, coordinates. -/
abbrev Pts : Shape := ⟨3, ![2048, 256, 3]⟩

/-- The squared distance between point `i` of `P` and point `j` of `Q` in patch `b`: the squared coordinate
    differences added to zero one after the other. -/
def sqDist (P Q : Pts.Idx → EReal) (b : Fin 2048) (i j : Fin 256) : EReal :=
  ((Ideal.ofBits .f32 0x00000000#32
      + (P (ix3 b i (0 : Fin 3)) - Q (ix3 b j (0 : Fin 3))) * (P (ix3 b i (0 : Fin 3)) - Q (ix3 b j (0 : Fin 3))))
    + (P (ix3 b i (1 : Fin 3)) - Q (ix3 b j (1 : Fin 3))) * (P (ix3 b i (1 : Fin 3)) - Q (ix3 b j (1 : Fin 3))))
  + (P (ix3 b i (2 : Fin 3)) - Q (ix3 b j (2 : Fin 3))) * (P (ix3 b i (2 : Fin 3)) - Q (ix3 b j (2 : Fin 3)))

/-- The least of 256 values: the fold of `min` from +∞ (the word `0x7F800000`). -/
def least (f : Fin 256 → EReal) : EReal :=
  (Finset.univ : Finset (Fin 256)).fold min (Ideal.ofBits .f32 0x7F800000#32) f

/-- One patch's distance from its table of squared distances: the mean over the first index of the row minima plus
    the mean over the second index of the column minima (a mean is the sum divided by 256, the word `0x43800000`). -/
def patch (D : Fin 256 → Fin 256 → EReal) : EReal :=
  Ideal.div (∑ i : Fin 256, least fun j => D i j) (Ideal.ofBits .f32 0x43800000#32)
    + Ideal.div (∑ j : Fin 256, least fun i => D i j) (Ideal.ofBits .f32 0x43800000#32)

/-- The mean over the 2048 patches (the word `0x45000000` is 2048). -/
def chamfer (P Q : Pts.Idx → EReal) : EReal :=
  Ideal.div (∑ b : Fin 2048, patch (sqDist P Q b)) (Ideal.ofBits .f32 0x45000000#32)

/-- The word `0x40000000` is the real number two. -/
theorem two_bits : Ideal.ofBits .f32 0x40000000#32 = ((2 : ℝ) : EReal) := by
  simp [Ideal.ofBits, Ideal.ieee, -EReal.coe_mul]; norm_num

/-- For points with real coordinates: `max(|p|^2 + |q|^2 - 2 <p, q>, 0)`, each of the three sums started from zero,
    is the sum of the squared coordinate differences added to zero one after the other. -/
theorem expanded_eq_squares (p q : Fin 3 → ℝ) :
    max (((0 : EReal) + ∑ k : Fin 3, ((p k : ℝ) : EReal) * ((p k : ℝ) : EReal))
          + ((0 : EReal) + ∑ k : Fin 3, ((q k : ℝ) : EReal) * ((q k : ℝ) : EReal))
          - ((2 : ℝ) : EReal) * ∑ k : Fin 3, ((p k : ℝ) : EReal) * ((q k : ℝ) : EReal)) 0
      = (((0 : EReal) + (((p 0 : ℝ) : EReal) - ((q 0 : ℝ) : EReal)) * (((p 0 : ℝ) : EReal) - ((q 0 : ℝ) : EReal)))
          + (((p 1 : ℝ) : EReal) - ((q 1 : ℝ) : EReal)) * (((p 1 : ℝ) : EReal) - ((q 1 : ℝ) : EReal)))
        + (((p 2 : ℝ) : EReal) - ((q 2 : ℝ) : EReal)) * (((p 2 : ℝ) : EReal) - ((q 2 : ℝ) : EReal)) := by
  have hl : ((0 : EReal) + ∑ k : Fin 3, ((p k : ℝ) : EReal) * ((p k : ℝ) : EReal))
          + ((0 : EReal) + ∑ k : Fin 3, ((q k : ℝ) : EReal) * ((q k : ℝ) : EReal))
          - ((2 : ℝ) : EReal) * ∑ k : Fin 3, ((p k : ℝ) : EReal) * ((q k : ℝ) : EReal)
      = (((p 0 - q 0) * (p 0 - q 0) + (p 1 - q 1) * (p 1 - q 1) + (p 2 - q 2) * (p 2 - q 2) : ℝ) : EReal) := by
    simp only [Fin.sum_univ_three, zero_add, ← EReal.coe_mul, ← EReal.coe_add, ← EReal.coe_sub]
    congr 1; ring
  have hr : (((0 : EReal) + (((p 0 : ℝ) : EReal) - ((q 0 : ℝ) : EReal)) * (((p 0 : ℝ) : EReal) - ((q 0 : ℝ) : EReal)))
          + (((p 1 : ℝ) : EReal) - ((q 1 : ℝ) : EReal)) * (((p 1 : ℝ) : EReal) - ((q 1 : ℝ) : EReal)))
        + (((p 2 : ℝ) : EReal) - ((q 2 : ℝ) : EReal)) * (((p 2 : ℝ) : EReal) - ((q 2 : ℝ) : EReal))
      = (((p 0 - q 0) * (p 0 - q 0) + (p 1 - q 1) * (p 1 - q 1) + (p 2 - q 2) * (p 2 - q 2) : ℝ) : EReal) := by
    simp only [zero_add, ← EReal.coe_mul, ← EReal.coe_add, ← EReal.coe_sub]
  rw [hl, hr]
  exact max_eq_left (EReal.coe_nonneg.mpr
    (add_nonneg (add_nonneg (mul_self_nonneg _) (mul_self_nonneg _)) (mul_self_nonneg _)))

end Cert.Chamfer

end
-- ==== Proof.LibFlatGather.lean ====
/-
  A gather from a flat array, and sums over a flat index set.

  `x[idx]` for a flat `x : [N]` and a column of start words `idx : [E, 1]` lowers to a gather whose one operand axis
  is in the start index map and collapsed.  Read at `e`, it is the operand at the start word `idx[e, 0]`, read as a
  signed integer and clamped into `[0, N − 1]`.  A rank-1 index is its one coordinate, so a sum over rank-1 indices
  is a sum over that coordinate.
-/
import Idealize.ShloMosaic.Lib.ValueIdx
import Idealize.ShloMosaic.PureOps.Ideal

noncomputable section

namespace Cert.Lib.FlatGather

open Idealize.ShloMosaic Idealize.ShloMosaic.ValueIdx
open scoped BigOperators

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- A sum over rank-1 indices is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The dimension numbers of `x[idx]` for a flat `x : [N]` and a column of start words `[E, 1]`: result `[E]`. -/
abbrev flatGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the start word `idx[e, 0]`, read signed and clamped into
    `[0, N − 1]`. The one operand axis is in the start index map and collapsed (no offset). -/
theorem flatGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGatherDims N E wf) x idx (ix1 e)
      = x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (flatGatherDims N E wf).start (ix1 e) idx 0 + (flatGatherDims N E wf).batchCoord (ix1 e) 0
    + (flatGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  have hsi : (flatGatherDims N E wf).siIdx (ix1 e) ⟨List.idxOf (0 : Fin 1) (flatGatherDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

end Cert.Lib.FlatGather

end
-- ==== Proof.RefValue.lean ====
/-
  The reference computes the patch Chamfer distance of its two reshaped arguments.

  Read one operation at a time: the squared-distance table entry (b, i, j) is
  max(|p|^2 + |q|^2 - 2 <p, q>, 0) for p = point i of patch b of the first array and q = point j of patch b of the
  second, which for real coordinates is the sum of the squared differences; a minimum over one axis of the table is
  the fold of `min` from +∞ over that axis's coordinate; the means and the final mean are sums divided by the counts.
-/
import proofs.«150360_j62723702391633_2_alg».proof.Proof.Gen.ReferenceIdeal.Read
import proofs.«150360_j62723702391633_2_alg».proof.Proof.Spec
import proofs.«150360_j62723702391633_2_alg».proof.Proof.LibRealArrays
import proofs.«150360_j62723702391633_2_alg».proof.Proof.LibFlatGather
import Idealize.ShloMosaic.PureOps.Reduce
import Idealize.ShloMosaic.PureOps.Ideal.Laws

noncomputable section

open scoped BigOperators

namespace Cert.Chamfer.Ref

open Cert.ReferenceIdeal Cert.ReferenceIdeal.Gen Cert.ReferenceIdeal.Read
open Idealize.ShloMosaic Idealize.ShloMosaic.ValueIdx Cert.RealArrays Cert.Chamfer

/-- An array reshaped is read entry by entry from the original, so a reshaped real array is real. -/
theorem real_v0 {X : FVec Ideal S32x64x256x3 .f32} (hX : IsReal X) : IsReal (val_main_v0 (F := Ideal) X) :=
  fun i => by rw [val_main_v0_apply]; exact hX _
theorem real_v1 {Y : FVec Ideal S32x64x256x3 .f32} (hY : IsReal Y) : IsReal (val_main_v1 (F := Ideal) Y) :=
  fun i => by rw [val_main_v1_apply]; exact hY _

/-- The clamped table entry (b, i, j) is the squared distance, for real coordinates. -/
theorem table_at (X Y : FVec Ideal S32x64x256x3 .f32) (hX : IsReal X) (hY : IsReal Y)
    (b : Fin 2048) (i j : Fin 256) :
    val_main_v16 (F := Ideal) X Y (ix3 b i j)
      = sqDist (val_main_v0 (F := Ideal) X) (val_main_v1 (F := Ideal) Y) b i j := by
  have e3 : ∀ k : Fin 3, idx_main_v3 (idx_main_v7 (idx_main_v9 (ix3 b i j))) k = ix3 b i k := fun k =>
    funext fun a => Fin.ext (by match a with | ⟨0, _⟩ => rfl | ⟨1, _⟩ => rfl | ⟨2, _⟩ => rfl)
  have e5 : ∀ k : Fin 3, idx_main_v5 (idx_main_v8 (idx_main_v10 (ix3 b i j))) k = ix3 b j k := fun k =>
    funext fun a => Fin.ext (by match a with | ⟨0, _⟩ => rfl | ⟨1, _⟩ => rfl | ⟨2, _⟩ => rfl)
  have el : ∀ k : Fin 3, lidx_main_v6 (ix3 b i j) k = ix3 b i k := fun k =>
    funext fun a => Fin.ext (by match a with | ⟨0, _⟩ => rfl | ⟨1, _⟩ => rfl | ⟨2, _⟩ => rfl)
  have er : ∀ k : Fin 3, ridx_main_v6 (ix3 b i j) k = ix3 b j k := fun k =>
    funext fun a => Fin.ext (by match a with | ⟨0, _⟩ => rfl | ⟨1, _⟩ => rfl | ⟨2, _⟩ => rfl)
  choose p hp using real_v0 hX
  choose q hq using real_v1 hY
  rw [val_main_v16_apply, val_main_v14_apply, val_main_v15_apply, val_main_cst_2_apply, val_main_v11_apply,
    val_main_v13_apply, val_main_v12_apply, val_main_cst_1_apply, val_main_v9_apply, val_main_v7_apply,
    val_main_v3_apply, val_main_v10_apply, val_main_v8_apply, val_main_v5_apply, val_main_v6_apply,
    val_main_cst_apply, val_main_cst_0_apply]
  simp only [val_main_v2_apply, val_main_v4_apply, e3, e5, el, er, hp, hq, Ideal.maximumf_def, Ideal.subf_def,
    Ideal.addf_def, Ideal.mulf_def, Ideal.ofBits_def, Ideal.ofBits_zero_f32, two_bits]
  unfold sqDist
  simp only [hp, hq, Ideal.ofBits_zero_f32]
  exact expanded_eq_squares (fun k => p (ix3 b i k)) (fun k => q (ix3 b j k))

/-- A minimum over the table's last axis, at (b, i): the least entry of row i of patch b. -/
theorem rowmin_at (X Y : FVec Ideal S32x64x256x3 .f32) (b : Fin 2048) (i : Fin 256) :
    val_main_v17 (F := Ideal) X Y (ix2 b i) = least fun j => val_main_v16 (F := Ideal) X Y (ix3 b i j) := by
  unfold val_main_v17
  rw [Host.reduce_eq_fold_single FloatOps.minimumf _ _ reducesTo_S2048x256x256_S2048x256_d2 (by decide) h_S_ (ix2 b i)]
  unfold least
  refine congrArg (fun f => (Finset.univ : Finset (Fin 256)).fold min (Ideal.ofBits .f32 0x7F800000#32) f)
    (funext fun j => ?_)
  exact congrArg (val_main_v16 (F := Ideal) X Y)
    (funext fun a => Fin.ext (by match a with | ⟨0, _⟩ => rfl | ⟨1, _⟩ => rfl | ⟨2, _⟩ => rfl))

/-- A minimum over the table's middle axis, at (b, j): the least entry of column j of patch b. -/
theorem colmin_at (X Y : FVec Ideal S32x64x256x3 .f32) (b : Fin 2048) (j : Fin 256) :
    val_main_v21 (F := Ideal) X Y (ix2 b j) = least fun i => val_main_v16 (F := Ideal) X Y (ix3 b i j) := by
  unfold val_main_v21
  rw [Host.reduce_eq_fold_single FloatOps.minimumf _ _ reducesTo_S2048x256x256_S2048x256_d1 (by decide) h_S_ (ix2 b j)]
  unfold least
  refine congrArg (fun f => (Finset.univ : Finset (Fin 256)).fold min (Ideal.ofBits .f32 0x7F800000#32) f)
    (funext fun i => ?_)
  exact congrArg (val_main_v16 (F := Ideal) X Y)
    (funext fun a => Fin.ext (by match a with | ⟨0, _⟩ => rfl | ⟨1, _⟩ => rfl | ⟨2, _⟩ => rfl))

/-- The per-patch value at b is the patch distance of the squared-distance table of patch b. -/
theorem patch_at (X Y : FVec Ideal S32x64x256x3 .f32) (hX : IsReal X) (hY : IsReal Y) (b : Fin 2048) :
    val_main_v25 (F := Ideal) X Y (ix1 b)
      = patch (sqDist (val_main_v0 (F := Ideal) X) (val_main_v1 (F := Ideal) Y) b) := by
  have e18 : ∀ k : Fin 256, idx_main_v18 (ix1 b) k = ix2 b k := fun k =>
    funext fun a => Fin.ext (by match a with | ⟨0, _⟩ => rfl | ⟨1, _⟩ => rfl)
  have e22 : ∀ k : Fin 256, idx_main_v22 (ix1 b) k = ix2 b k := fun k =>
    funext fun a => Fin.ext (by match a with | ⟨0, _⟩ => rfl | ⟨1, _⟩ => rfl)
  rw [val_main_v25_apply, val_main_v20_apply, val_main_v24_apply, val_main_v19_apply, val_main_v23_apply,
    val_main_cst_5_apply, val_main_cst_8_apply, val_main_v18_apply, val_main_v22_apply, val_main_cst_4_apply,
    val_main_cst_7_apply]
  simp only [e18, e22, rowmin_at, colmin_at, table_at X Y hX hY, Ideal.addf_def, Ideal.hostDivf_def,
    Ideal.ofBits_def, Ideal.ofBits_zero_f32, zero_add]
  rfl

/-- The reference's result, for real inputs: the patch Chamfer distance of the two reshaped arguments. -/
theorem result_eq (X Y : FVec Ideal S32x64x256x3 .f32) (hX : IsReal X) (hY : IsReal Y) :
    val_main_v27 (F := Ideal) X Y
      = fun _ => chamfer (val_main_v0 (F := Ideal) X) (val_main_v1 (F := Ideal) Y) := by
  funext i
  rw [val_main_v27_apply, val_main_v26_apply, val_main_cst_10_apply, val_main_cst_9_apply,
    Cert.Lib.FlatGather.sum_idx1]
  simp only [patch_at X Y hX hY, Ideal.hostDivf_def, Ideal.ofBits_def, Ideal.ofBits_zero_f32, zero_add]
  rfl

end Cert.Chamfer.Ref

end
-- ==== Proof.LibColumnCast.lean ====
/-
  A vector reshaped to a column.
-/
import Idealize.ShloMosaic.Lib.Pipeline.Value
import Idealize.ShloMosaic.Lib.ValueIdx

namespace Cert.Lib

open Idealize.ShloMosaic Idealize.ShloMosaic.ValueIdx

/-- An `[a]` array reshaped to the column `[a, 1]` reads, at `(i, u)`, the operand at `i`, whatever the unit
    coordinate `u`: both positions have the same row-major offset `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.KernelBody.lean ====
/-
  What the kernel body computes from its two input blocks, entry by entry.

  A block holds 32 patches: x(p, d, i) is coordinate d of point i of patch p.  The body forms, for every patch p of the
  block, the table of squared distances between point i of the first block and point j of the second (one coordinate
  at a time, added to zero), takes the minimum along either axis of the table, averages each family of minima
  (sum divided by 256) and adds the two averages; the result is stored as the column [32, 1].
  So entry (p, 0) of what is stored is the patch distance of the table of patch p.
-/
import proofs.«150360_j62723702391633_2_alg».proof.Proof.Gen.KernelIdeal.Skeleton
import proofs.«150360_j62723702391633_2_alg».proof.Proof.Spec
import proofs.«150360_j62723702391633_2_alg».proof.Proof.LibColumnCast
import Idealize.ShloMosaic.Lib.Pipeline.Value
import Idealize.ShloMosaic.Lib.ValueIdx
import Idealize.ShloMosaic.PureOps.Reduce
import Idealize.ShloMosaic.PureOps.Ideal.Laws

noncomputable section

open scoped BigOperators

namespace Cert.Chamfer.Body

open Cert.KernelIdeal Cert.KernelIdeal.Gen
open Idealize.ShloMosaic Idealize.ShloMosaic.ValueIdx Cert.Chamfer

/-- Coordinate `d` of every point of a block, laid out as [patch, point]: the slice of the block at offset `d`
    along the coordinate axis with that unit axis dropped, read at (p, i), is the block at (p, d, i). -/
theorem coord_plane (x : S32x3x256.Idx → EReal) (off : Fin 3 → Nat) (d : Fin 3)
    (h0 : off 0 = 0) (h1 : off 1 = d.val) (h2 : off 2 = 0)
    (hself : S32x3x256.ShapeCasts S32x3x256) (hs : S32x3x256.Slices off S32x1x256)
    (hc : S32x1x256.ShapeCasts S32x256) (p : Fin 32) (i : Fin 256) :
    shapeCast S32x256 (extractStridedSlice S32x1x256 off (shapeCast S32x3x256 x hself) hs) hc (ix2 p i)
      = x (ix3 p d i) := by
  refine (shapeCast_apply _ hc (ix2 p i) (ix3 p (0 : Fin 1) i) ?_).trans ?_
  · rw [Shape.rowMajor_val_three, Shape.rowMajor_val_two]
    show (p.val * 1 + 0) * 256 + i.val = p.val * 256 + i.val
    omega
  refine (extractStridedSlice_apply off _ hs (ix3 p (0 : Fin 1) i) (ix3 p d i) ?_).trans ?_
  · intro a
    match a with
    | ⟨0, _⟩ => show p.val = off 0 + p.val; omega
    | ⟨1, _⟩ => show d.val = off 1 + 0; omega
    | ⟨2, _⟩ => show i.val = off 2 + i.val; omega
  rw [shapeCast_self]

/-- A [patch, point] array stretched along a new last axis: entry (p, i, j) is the array at (p, i). -/
theorem along_rows (v : S32x256.Idx → EReal) (hc : S32x256.ShapeCasts S32x256x1)
    (hb : S32x256x1.Broadcasts S32x256x256) (p : Fin 32) (i j : Fin 256) :
    broadcastTo S32x256x256 (shapeCast S32x256x1 v hc) hb (ix3 p i j) = v (ix2 p i) := by
  refine (broadcastTo_apply _ hb (ix3 p i j) (ix3 p i (0 : Fin 1)) ?_).trans ?_
  · intro a
    match a with
    | ⟨0, _⟩ => show p.val = if (32 : Nat) = 1 then 0 else p.val; rw [if_neg (by decide)]
    | ⟨1, _⟩ => show i.val = if (256 : Nat) = 1 then 0 else i.val; rw [if_neg (by decide)]
    | ⟨2, _⟩ => show 0 = if (1 : Nat) = 1 then 0 else j.val; rw [if_pos rfl]
  refine shapeCast_apply v hc _ (ix2 p i) ?_
  rw [Shape.rowMajor_val_two, Shape.rowMajor_val_three]
  show p.val * 256 + i.val = (p.val * 256 + i.val) * 1 + 0
  omega

/-- A [patch, point] array stretched along a new middle axis: entry (p, i, j) is the array at (p, j). -/
theorem along_cols (v : S32x256.Idx → EReal) (hc : S32x256.ShapeCasts S32x1x256)
    (hb : S32x1x256.Broadcasts S32x256x256) (p : Fin 32) (i j : Fin 256) :
    broadcastTo S32x256x256 (shapeCast S32x1x256 v hc) hb (ix3 p i j) = v (ix2 p j) := by
  refine (broadcastTo_apply _ hb (ix3 p i j) (ix3 p (0 : Fin 1) j) ?_).trans ?_
  · intro a
    match a with
    | ⟨0, _⟩ => show p.val = if (32 : Nat) = 1 then 0 else p.val; rw [if_neg (by decide)]
    | ⟨1, _⟩ => show 0 = if (1 : Nat) = 1 then 0 else i.val; rw [if_pos rfl]
    | ⟨2, _⟩ => show j.val = if (256 : Nat) = 1 then 0 else j.val; rw [if_neg (by decide)]
  refine shapeCast_apply v hc _ (ix2 p j) ?_
  rw [Shape.rowMajor_val_two, Shape.rowMajor_val_three]
  show p.val * 256 + j.val = (p.val * 1 + 0) * 256 + j.val
  omega

/-- The squared distance between point `i` of patch `p` of the first block and point `j` of patch `p` of the
    second, the squared coordinate differences added to zero one after the other. -/
def blockDist (x0 x1 : S32x3x256.Idx → EReal) (p : Fin 32) (i j : Fin 256) : EReal :=
  ((Ideal.ofBits .f32 0x00000000#32
      + (x0 (ix3 p (0 : Fin 3) i) - x1 (ix3 p (0 : Fin 3) j)) * (x0 (ix3 p (0 : Fin 3) i) - x1 (ix3 p (0 : Fin 3) j)))
    + (x0 (ix3 p (1 : Fin 3) i) - x1 (ix3 p (1 : Fin 3) j)) * (x0 (ix3 p (1 : Fin 3) i) - x1 (ix3 p (1 : Fin 3) j)))
  + (x0 (ix3 p (2 : Fin 3) i) - x1 (ix3 p (2 : Fin 3) j)) * (x0 (ix3 p (2 : Fin 3) i) - x1 (ix3 p (2 : Fin 3) j))

/-- The body's table of squared distances, entry (p, i, j). -/
theorem table_at (x0 x1 : Vec Ideal S32x3x256 .f32) (p : Fin 32) (i j : Fin 256) :
    k0_pay2 (F := Ideal) x0 x1 (ix3 p i j) = blockDist x0 x1 p i j := by
  unfold k0_pay2 blockDist
  simp only [addf_apply, mulf_apply, subf_apply, broadcast_apply, along_rows, along_cols,
    coord_plane _ ![0, 0, 0] (0 : Fin 3) rfl rfl rfl, coord_plane _ ![0, 1, 0] (1 : Fin 3) rfl rfl rfl,
    coord_plane _ ![0, 2, 0] (2 : Fin 3) rfl rfl rfl]
  rfl

/-- A minimum along the table's last axis, at (p, i): the least entry of row i of patch p's table. -/
theorem rowmin_at (T : FVec Ideal S32x256x256 .f32) (h : S32x256x256.Reduces [2] S32x256) (hφ : FKind.Formats .f32)
    (hacc : (0x7F800000#32 : BitVec 32) = 0x7F800000#32) (p : Fin 32) (i : Fin 256) :
    multiReduction .minimumf [2] S32x256 T 0x7F800000#32 h hφ hacc (ix2 p i) = least fun j => T (ix3 p i j) := by
  refine (multiReduction_minimumf_eq_fold T 0x7F800000#32 h hφ hacc (ix2 p i)).trans ?_
  refine (h.fold_filter_drop_single _ _ T (ix2 p i)).trans ?_
  unfold least
  refine congrArg (fun f => (Finset.univ : Finset (Fin 256)).fold min (Ideal.ofBits .f32 0x7F800000#32) f)
    (funext fun j => ?_)
  exact congrArg T (funext fun a => Fin.ext (by match a with | ⟨0, _⟩ => rfl | ⟨1, _⟩ => rfl | ⟨2, _⟩ => rfl))

/-- A minimum along the table's middle axis, at (p, j): the least entry of column j of patch p's table. -/
theorem colmin_at (T : FVec Ideal S32x256x256 .f32) (h : S32x256x256.Reduces [1] S32x256) (hφ : FKind.Formats .f32)
    (hacc : (0x7F800000#32 : BitVec 32) = 0x7F800000#32) (p : Fin 32) (j : Fin 256) :
    multiReduction .minimumf [1] S32x256 T 0x7F800000#32 h hφ hacc (ix2 p j) = least fun i => T (ix3 p i j) := by
  refine (multiReduction_minimumf_eq_fold T 0x7F800000#32 h hφ hacc (ix2 p j)).trans ?_
  refine (h.fold_filter_drop_single _ _ T (ix2 p j)).trans ?_
  unfold least
  refine congrArg (fun f => (Finset.univ : Finset (Fin 256)).fold min (Ideal.ofBits .f32 0x7F800000#32) f)
    (funext fun i => ?_)
  exact congrArg T (funext fun a => Fin.ext (by match a with | ⟨0, _⟩ => rfl | ⟨1, _⟩ => rfl | ⟨2, _⟩ => rfl))

/-- A sum along the point axis of a [patch, point] array, at p. -/
theorem sum_at (v : FVec Ideal S32x256 .f32) (h : S32x256.Reduces [1] S32) (hφ : FKind.Formats .f32)
    (hacc : (0x00000000#32 : BitVec 32) = 0x00000000#32) (p : Fin 32) :
    multiReduction .add [1] S32 v 0x00000000#32 h hφ hacc (ix1 p) = ∑ k : Fin 256, v (ix2 p k) := by
  refine (Ideal.multiReduction_add_single v 0x00000000#32 h hφ hacc (ix1 p)).trans ?_
  exact Finset.sum_congr rfl fun k _ =>
    congrArg v (funext fun a => Fin.ext (by match a with | ⟨0, _⟩ => rfl | ⟨1, _⟩ => rfl))

/-- The mean of the row minima of patch p's table. -/
theorem forward_at (x0 x1 : Vec Ideal S32x3x256 .f32) (p : Fin 32) :
    k0_pay3 (F := Ideal) x0 x1 (ix1 p)
      = Ideal.div (∑ i : Fin 256, least fun j => blockDist x0 x1 p i j) (Ideal.ofBits .f32 0x43800000#32) := by
  unfold k0_pay3
  simp only [divf_apply, broadcast_apply]
  refine congrArg (fun s => Ideal.div s (Ideal.ofBits .f32 0x43800000#32)) ?_
  refine (sum_at _ _ _ _ p).trans ?_
  refine Finset.sum_congr rfl fun i _ => ?_
  refine (rowmin_at _ _ _ _ p i).trans ?_
  exact congrArg least (funext fun j => table_at x0 x1 p i j)

/-- The mean of the column minima of patch p's table. -/
theorem backward_at (x0 x1 : Vec Ideal S32x3x256 .f32) (p : Fin 32) :
    k0_pay4 (F := Ideal) x0 x1 (ix1 p)
      = Ideal.div (∑ j : Fin 256, least fun i => blockDist x0 x1 p i j) (Ideal.ofBits .f32 0x43800000#32) := by
  unfold k0_pay4
  simp only [divf_apply, broadcast_apply]
  refine congrArg (fun s => Ideal.div s (Ideal.ofBits .f32 0x43800000#32)) ?_
  refine (sum_at _ _ _ _ p).trans ?_
  refine Finset.sum_congr rfl fun j _ => ?_
  refine (colmin_at _ _ _ _ p j).trans ?_
  exact congrArg least (funext fun i => table_at x0 x1 p i j)

/-- What the body stores, at (p, 0): the patch distance of patch p's table. -/
theorem stored_at (x0 x1 : Vec Ideal S32x3x256 .f32) (p : Fin 32) (u : Fin 1) :
    k0_pay1 (F := Ideal) (k0_pay3 x0 x1) (k0_pay4 x0 x1) (ix2 p u) = patch (blockDist x0 x1 p) := by
  unfold k0_pay1
  refine (Cert.Lib.shapeCast_a_a1_apply _ _ p u).trans ?_
  rw [addf_apply, forward_at, backward_at]
  rfl

/-- Row `32·t + p` of 2048, for a grid point t < 64 and a row p < 32 of its block. -/
theorem row_lt (tv : Nat) (htv : tv < 64) (p : Fin 32) : 32 * tv + p.val < 2048 := by
  have := p.isLt
  omega

/-- One grid point's stored column, entry by entry, when the two blocks are rows `32·t … 32·t + 31` of two point
    arrays read with the point and coordinate axes exchanged: entry y is the patch distance of patch `32·t + y₀`. -/
theorem point_value (x0 x1 : Vec Ideal S32x3x256 .f32) (A B : Pts.Idx → EReal) (tv : Nat) (htv : tv < 64)
    (y : S32x1.Idx) (b : Fin 2048) (hb : b.val = 32 * tv + (y 0).val)
    (hA : ∀ (p : Fin 32) (d : Fin 3) (i : Fin 256),
      x0 (ix3 p d i) = A (ix3 (⟨32 * tv + p.val, row_lt tv htv p⟩ : Fin 2048) i d))
    (hB : ∀ (p : Fin 32) (d : Fin 3) (i : Fin 256),
      x1 (ix3 p d i) = B (ix3 (⟨32 * tv + p.val, row_lt tv htv p⟩ : Fin 2048) i d)) :
    k0_pay1 (F := Ideal) (k0_pay3 x0 x1) (k0_pay4 x0 x1) y = patch (sqDist A B b) := by
  obtain ⟨p, u, rfl⟩ : ∃ (p : Fin 32) (u : Fin 1), y = ix2 p u := ⟨y 0, y 1, eq_ix2 y⟩
  have hbb : b = (⟨32 * tv + p.val, row_lt tv htv p⟩ : Fin 2048) := Fin.ext hb
  rw [hbb]
  refine (stored_at x0 x1 p u).trans (congrArg patch (funext fun i => funext fun j => ?_))
  unfold blockDist sqDist
  rw [hA p 0 i, hA p 1 i, hA p 2 i, hB p 0 j, hB p 1 j, hB p 2 j]

end Cert.Chamfer.Body

end
-- ==== Proof.KernelBlocks.lean ====
/-
  From the grid's blocks to the whole array the region writes.

  Before the region the host reshapes each argument to [2048, 256, 3] (patch, point, coordinate) and exchanges its
  last two axes; the region's input windows cut the results into 64 blocks of 32 patches, so the block at grid point t,
  read at (p, d, i), is the reshaped argument at (32·t + p, i, d).  The output window writes back, at point t, rows
  32·t … 32·t + 31 of a [2048, 1] column; those 64 blocks tile the column.  So after the region the column holds, at
  (b, 0), the patch distance of patch b of the two reshaped arguments.
-/
import proofs.«150360_j62723702391633_2_alg».proof.Proof.Gen.KernelIdeal.Frame
import proofs.«150360_j62723702391633_2_alg».proof.Proof.KernelBody
import Idealize.ShloMosaic.Lib.Pipeline.Value
import Idealize.ShloMosaic.Lib.StableHlo.Run
import Idealize.ShloMosaic.Lib.Tactic

noncomputable section

open scoped BigOperators

namespace Cert.Chamfer.Blocks

open Cert.KernelIdeal Cert.KernelIdeal.Gen
open Idealize.ShloMosaic Idealize.ShloMosaic.TcCoe Idealize.SL.Sem Idealize.ShloMosaic.StableHlo
open Idealize.ShloMosaic.ValueIdx Cert.Chamfer
open Idealize.ShloMosaic.Pipeline (Dat)

variable (m : (ℓ : Loc nD τ sig) → Buf (Elt Ideal) ℓ)

/-- The two arguments reshaped to [patch, point, coordinate]. -/
abbrev ptsA (c : Dev nD) : Pts.Idx → EReal :=
  shapeCast S2048x256x3 (m ((c : Thread nD τ).loc main_arg0)) shapeCasts_S32x64x256x3_S2048x256x3
abbrev ptsB (c : Dev nD) : Pts.Idx → EReal :=
  shapeCast S2048x256x3 (m ((c : Thread nD τ).loc main_arg1)) shapeCasts_S32x64x256x3_S2048x256x3

/-- What the region finds in its first input array: the first argument reshaped, last two axes exchanged. -/
theorem entry_A (c : Dev nD) : (V m c main_v2 : S2048x3x256.Idx → EReal)
    = transpose S2048x3x256 [0, 2, 1] (ptsA m c) transposes_S2048x256x3_S2048x3x256_0_2_1 := by
  show StableHlo.after hostOps0 (fun b => m (c, b)) (Proc.devRef .tc main_v2) = _
  after_results
  rfl

/-- The same for the second. -/
theorem entry_B (c : Dev nD) : (V m c main_v3 : S2048x3x256.Idx → EReal)
    = transpose S2048x3x256 [0, 2, 1] (ptsB m c) transposes_S2048x256x3_S2048x3x256_0_2_1 := by
  show StableHlo.after hostOps0 (fun b => m (c, b)) (Proc.devRef .tc main_v3) = _
  after_results
  rfl

/-- The printed index maps over the grid: every window's block index is the grid point on the patch axis and zero
    on the others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- The grid has 64 points. -/
theorem point_lt (t : Fin cfg0.N) : t.val < 64 := by
  have h1 := t.isLt
  have h2 : cfg0.N = 64 := N_0
  omega

/-- The first input block at point t, read at (p, d, i): the reshaped first argument at (32·t + p, i, d). -/
theorem blockA_at (c : Dev nD) (t : Fin cfg0.N) (p : Fin 32) (d : Fin 3) (i : Fin 256) :
    (iblk m c 0 t : Vec Ideal S32x3x256 .f32) (ix3 p d i)
      = ptsA m c (ix3 (⟨32 * t.val + p.val, Body.row_lt t.val (point_lt t) p⟩ : Fin 2048) i d) := by
  obtain ⟨e0, e1, e2, -⟩ := idx_facts t
  unfold iblk
  rw [View.read_apply]
  show (V m c main_v2 : S2048x3x256.Idx → EReal) _ = _
  rw [entry_A]
  refine transpose_apply [0, 2, 1] _ _ _ (ix3 (⟨32 * t.val + p.val, Body.row_lt t.val (point_lt t) p⟩ : Fin 2048) i d) ?_
  intro b
  match b with
  | ⟨0, _⟩ => show 32 * t.val + p.val = win0_0.index t (0 : Fin 3) * 32 + 1 * p.val; rw [e0]; omega
  | ⟨1, _⟩ => show d.val = win0_0.index t (1 : Fin 3) * 3 + 1 * d.val; rw [e1]; omega
  | ⟨2, _⟩ => show i.val = win0_0.index t (2 : Fin 3) * 256 + 1 * i.val; rw [e2]; omega

/-- The second input block likewise. -/
theorem blockB_at (c : Dev nD) (t : Fin cfg0.N) (p : Fin 32) (d : Fin 3) (i : Fin 256) :
    (iblk m c 1 t : Vec Ideal S32x3x256 .f32) (ix3 p d i)
      = ptsB m c (ix3 (⟨32 * t.val + p.val, Body.row_lt t.val (point_lt t) p⟩ : Fin 2048) i d) := by
  obtain ⟨-, -, -, e0, e1, e2, -⟩ := idx_facts t
  unfold iblk
  rw [View.read_apply]
  show (V m c main_v3 : S2048x3x256.Idx → EReal) _ = _
  rw [entry_B]
  refine transpose_apply [0, 2, 1] _ _ _ (ix3 (⟨32 * t.val + p.val, Body.row_lt t.val (point_lt t) p⟩ : Fin 2048) i d) ?_
  intro b
  match b with
  | ⟨0, _⟩ => show 32 * t.val + p.val = win0_1.index t (0 : Fin 3) * 32 + 1 * p.val; rw [e0]; omega
  | ⟨1, _⟩ => show d.val = win0_1.index t (1 : Fin 3) * 3 + 1 * d.val; rw [e1]; omega
  | ⟨2, _⟩ => show i.val = win0_1.index t (2 : Fin 3) * 256 + 1 * i.val; rw [e2]; omega

theorem zeros2 : (![0, 0] : Fin 2 → Nat) = fun _ => 0 := funext fun a => by fin_cases a <;> rfl
theorem zeros3 : (![0, 0, 0] : Fin 3 → Nat) = fun _ => 0 := funext fun a => by fin_cases a <;> rfl

/-- The column the region leaves: at (b, 0) the patch distance of patch b of the two reshaped arguments. -/
def perPatch (c : Dev nD) : S2048x1.Idx → EReal :=
  fun i => patch (sqDist (ptsA m c) (ptsB m c) (i 0))

/-- What grid point t writes back is rows 32·t … 32·t + 31 of that column. -/
theorem flushed_eq (c : Dev nD) (t : Fin cfg0.N) :
    (dats m 0 c).flushed 2 t = ((cfg0.win 2).blk t).view.read (Elt Ideal) (perPatch m c) := by
  obtain ⟨-, -, -, -, -, -, e6, e7⟩ := idx_facts t
  show (cfg0.win 2).cut (grid0.coords t) ((dats m 0 c).after 2 t) = _
  rw [after0_2]
  unfold out0_2
  rw [View.canon_unit_zero zeros2]
  simp only [View.ld_unit_zero (S := S32x3x256) zeros3]
  funext y
  show k0_pay1 (k0_pay3 (iblk m c 0 t) (iblk m c 1 t)) (k0_pay4 (iblk m c 0 t) (iblk m c 1 t)) y
    = perPatch m c (((cfg0.win 2).blk t).view.emb y)
  refine Body.point_value (iblk m c 0 t) (iblk m c 1 t) (ptsA m c) (ptsB m c) t.val (point_lt t) y _ ?_
    (blockA_at m c t) (blockB_at m c t)
  show win0_2.index t (0 : Fin 2) * 32 + 1 * (y 0).val = 32 * t.val + (y 0).val
  rw [e6]
  omega

/-- An index of the column is in point t's block iff each coordinate is in the block's range on its axis. -/
theorem mem_blk (t : Fin cfg0.N) (i : S2048x1.Idx) :
    i ∈ ((cfg0.win 2).blk t).view.set
      ↔ ∀ a : Fin 2, win0_2.index t a * S32x1.size a ≤ (i a).val
          ∧ (i a).val < win0_2.index t a * S32x1.size a + S32x1.size a := by
  show i ∈ ((View.whole main_v4).slice (win0_2.rect t)).set ↔ _
  rw [View.set_slice_whole, Rect.mem_set_unit]
  exact Iff.rfl

/-- The 64 blocks tile the column: row r is in the block of point r / 32. -/
theorem covered (i : S2048x1.Idx) :
    ∃ t : Fin cfg0.N, (cfg0.win 2).flush t = true ∧ i ∈ ((cfg0.win 2).blk t).view.set := by
  have hi0 : (i 0).val < 2048 := (i 0).isLt
  have hi1 : (i 1).val < 1 := (i 1).isLt
  have hN : cfg0.N = 64 := N_0
  have hlt : (i 0).val / 32 < cfg0.N := by omega
  obtain ⟨-, -, -, -, -, -, e6, e7⟩ := idx_facts ⟨(i 0).val / 32, hlt⟩
  refine ⟨⟨(i 0).val / 32, hlt⟩, flush0_2 _, ?_⟩
  rw [mem_blk]
  intro a
  match a with
  | ⟨0, _⟩ =>
    show win0_2.index ⟨(i 0).val / 32, hlt⟩ (0 : Fin 2) * 32 ≤ (i 0).val
      ∧ (i 0).val < win0_2.index ⟨(i 0).val / 32, hlt⟩ (0 : Fin 2) * 32 + 32
    rw [e6]
    show (i 0).val / 32 * 32 ≤ (i 0).val ∧ (i 0).val < (i 0).val / 32 * 32 + 32
    omega
  | ⟨1, _⟩ =>
    show win0_2.index ⟨(i 0).val / 32, hlt⟩ (1 : Fin 2) * 1 ≤ (i 1).val
      ∧ (i 1).val < win0_2.index ⟨(i 0).val / 32, hlt⟩ (1 : Fin 2) * 1 + 1
    rw [e7]
    omega

/-- So after the region the output array holds the column of patch distances. -/
theorem final (c : Dev nD) : (dats m 0 c).arrAt 2 cfg0.N = perPatch m c :=
  (dats m 0 c).arrAt_eq_of_cover 2 (perPatch m c) (fun t _ => flushed_eq m c t) (covered)

end Cert.Chamfer.Blocks

end
-- ==== Proof.KernelRun.lean ====
/-
  The kernel program's result.

  After the region the host adds up the [2048, 1] column of patch distances over both axes and divides by 2048: the
  mean of the patch distances, the patch Chamfer distance of the two reshaped arguments.  A sum over the indices of
  a [2048, 1] array is the sum over its 2048 rows.
-/
import proofs.«150360_j62723702391633_2_alg».proof.Proof.KernelBlocks
import Idealize.ShloMosaic.Lib.Pipeline.FrameSuffix

noncomputable section

open scoped BigOperators

namespace Cert.Chamfer.KernelRun

open Cert.KernelIdeal Cert.KernelIdeal.Gen
open Idealize.ShloMosaic Idealize.ShloMosaic.TcCoe Idealize.SL.Sem Idealize.ShloMosaic.StableHlo
open Idealize.ShloMosaic.ValueIdx Cert.Chamfer Cert.Chamfer.Blocks
open Idealize.ShloMosaic.Pipeline (Dat)

variable (m : (ℓ : Loc nD τ sig) → Buf (Elt Ideal) ℓ) (ρ : Dev nD → PrngReg)

/-- The lines after the region leave, in the result buffer, the mean over the patches of the column the region
    wrote. -/
theorem tail_value (c : Dev nD) :
    (Pipeline.afterTail₀ cfgs (dats m) 0 (V0 m) [hostOps1] c main_v6 : S_.Idx → EReal)
      = fun _ => chamfer (ptsA m c) (ptsB m c) := by
  have hcol : Pipeline.withArrays (cfgs 0).spec c (V0 m c) (fun w => (dats m 0 c).arrAt w (cfgs 0).N)
      (Proc.devRef .tc main_v4) = perPatch m c :=
    (Pipeline.withArrays_arr spec0 launch0.win.arr_inj c _ _ 2).trans (final m c)
  unfold Pipeline.afterTail₀
  show StableHlo.after hostOps1 _ (Proc.devRef .tc main_v6) = _
  after_results
  rw [hcol]
  funext i
  show Ideal.div (Host.reduceAdd (F := Ideal) (perPatch m c) (constant (F := Ideal) S_ .f32 0x00000000#32) reducesTo_S2048x1_S_d0_1 h_S_ i)
    (Ideal.ofBits .f32 0x45000000#32) = _
  unfold chamfer
  refine congrArg (fun s => Ideal.div s (Ideal.ofBits .f32 0x45000000#32)) ?_
  simp only [Host.reduceAdd, Ideal.hostReduceAdd_def]
  refine (Ideal.hostReduceAdd_total reducesTo_S2048x1_S_d0_1 (fun b => b.elim0) (perPatch m c) _ i).trans ?_
  rw [sum_idx2]
  simp only [Fin.sum_univ_one]
  show Ideal.ofBits .f32 0x00000000#32 + _ = _
  rw [Ideal.ofBits_zero_f32, zero_add]
  rfl

/-- The frame run re-posted: the result buffer at the patch Chamfer distance of the reshaped arguments, the
    arguments unchanged. -/
theorem run : θ_run defs (onTc (τ := τ) (main (F := Ideal))) ⟨m, fun _ => 0, ρ⟩ fun r => ∀ c : Dev nD,
      r.2.mem ((c.tc : Thread nD τ).loc main_v6) = (fun _ => chamfer (ptsA m c) (ptsB m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v6 (Pipeline.mem_restRefs_of main_v6 (by decide) (by decide))).trans (tail_value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.Chamfer.KernelRun

end
-- ==== Proof.lean ====
/-
  The patch Chamfer distance kernel against its jnp reference: the five claims.

  Both programs reshape their two arguments to [2048, 256, 3] (patch, point, coordinate).  The kernel forms, block by
  block, each patch's table of squared distances as the sum of squared coordinate differences; the reference forms the
  same table as max(|p|^2 + |q|^2 - 2 <p, q>, 0).  For real coordinates — which the precondition gives — the two tables
  agree entry by entry (the expansion of a square, and a square is never negative), and from the table on both
  programs take the same minima, means and final mean.  So both results are the one number `chamfer` of the reshaped
  arguments.

  The kernel's value is read off its frame run (its blocks tile the output column, and the host's last lines average
  the column); the reference's value is its run read one operation at a time.  The three frames are the runs with the
  results dropped; the idealization rewrote nothing, so `preserves` is trivial.
-/
import proofs.«150360_j62723702391633_2_alg».proof.Defs
import proofs.«150360_j62723702391633_2_alg».proof.Proof.Gen.Kernel
import proofs.«150360_j62723702391633_2_alg».proof.Proof.Gen.Kernel.Skeleton
import proofs.«150360_j62723702391633_2_alg».proof.Proof.Gen.Kernel.Launch
import proofs.«150360_j62723702391633_2_alg».proof.Proof.Gen.Kernel.Points
import proofs.«150360_j62723702391633_2_alg».proof.Proof.Gen.Kernel.Frame
import proofs.«150360_j62723702391633_2_alg».proof.Proof.Gen.KernelIdeal
import proofs.«150360_j62723702391633_2_alg».proof.Proof.Gen.KernelIdeal.Skeleton
import proofs.«150360_j62723702391633_2_alg».proof.Proof.Gen.KernelIdeal.Launch
import proofs.«150360_j62723702391633_2_alg».proof.Proof.Gen.KernelIdeal.Points
import proofs.«150360_j62723702391633_2_alg».proof.Proof.Gen.KernelIdeal.Frame
import proofs.«150360_j62723702391633_2_alg».proof.Proof.Gen.ReferenceIdeal
import proofs.«150360_j62723702391633_2_alg».proof.Proof.Gen.Pre_finite_inputs
import proofs.«150360_j62723702391633_2_alg».proof.Proof.Gen.ReferenceIdeal.Run
import proofs.«150360_j62723702391633_2_alg».proof.Proof.Gen.ReferenceIdeal.Read
import proofs.«150360_j62723702391633_2_alg».proof.Proof.RealInputs
import proofs.«150360_j62723702391633_2_alg».proof.Proof.RefValue
import proofs.«150360_j62723702391633_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the patch Chamfer distance of the reshaped arguments: the kernel by its frame run
    read block by block, the reference by its run read operation by operation, the squared-distance tables equal
    because the precondition makes every coordinate a real number. -/
theorem algebraic : Cert.algebraic_KernelIdeal_ReferenceIdeal := by
  intro m ρ m' ρ' hpre hagree
  refine ⟨fun c => fun _ => Cert.Chamfer.chamfer (Cert.Chamfer.Blocks.ptsA m c) (Cert.Chamfer.Blocks.ptsB m c),
    Cert.Chamfer.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hY⟩ := Cert.Chamfer.real_of_pre _ _ (hpre c)
  rw [Cert.ReferenceIdeal.Read.val_main_v27_eq, (hagree c).1, (hagree c).2,
    Cert.Chamfer.Ref.result_eq _ _ hX hY]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
